-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S512x5994 : Shape := ⟨2, ![512, 5994]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S512x5994 : S_.BroadcastsInDim S512x5994 (![] : Fin 0 → Fin S512x5994.rank)
  reducesTo_S512x5994_S_d0_1 : S512x5994.ReducesTo [0, 1] S_

variable [Facts]

def fn {F : FTy → Type} [FloatOps F] (main_arg0 : FVec F S4096x512 .f32) (main_arg1 : FVec F S512x5994 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S512x5994 .f32 := Host.absf main_arg1
  let main_cst_0 : FVec F S_ .f32 := constant S_ .f32 0x7F800000#32
  let main_v5 : FVec F S512x5994 .f32 := broadcastInDim S512x5994 ![] bcast_S_S512x5994 main_cst_0
  let main_v6 : IVec S512x5994 1 := cmpf .olt main_v4 main_v5
  let main_c_1 : IVec S_ 1 := constantI S_ 1 1#1
  let main_v7 : IVec S_ 1 := (fun x v => Host.reduce IntOp.andi x v reducesTo_S512x5994_S_d0_1 h_S_) main_v6 main_c_1
  let main_v8 : IVec S_ 1 := andi main_v3 main_v7
  main_v8
-- ==== Kernel.lean ====
abbrev S4096x512 : Shape := ⟨2, ![4096, 512]⟩
abbrev S512x5994 : Shape := ⟨2, ![512, 5994]⟩
abbrev S_ : Shape := ⟨0, ![]⟩
abbrev S512 : Shape := ⟨1, ![512]⟩
abbrev S512x1 : Shape := ⟨2, ![512, 1]⟩
abbrev S512x6016 : Shape := ⟨2, ![512, 6016]⟩
abbrev S4096x6016 : Shape := ⟨2, ![4096, 6016]⟩
abbrev S256x512 : Shape := ⟨2, ![256, 512]⟩
abbrev S256x6016 : Shape := ⟨2, ![256, 6016]⟩
abbrev S256 : Shape := ⟨1, ![256]⟩
abbrev S256x1 : Shape := ⟨2, ![256, 1]⟩
abbrev S4096x5994 : Shape := ⟨2, ![4096, 5994]⟩

abbrev nBuf : Space → Nat
  | .hbm => 18
  | .vmem => 5
  | .smem => 0
  | _ => 0

abbrev bufTy : (tb : Table) → Fin (tcTables nBuf tb) → BufTy
  | .hbm, ⟨0, _⟩ => ⟨S4096x512, .f32⟩
  | .hbm, ⟨1, _⟩ => ⟨S512x5994, .f32⟩
  | .hbm, ⟨2, _⟩ => ⟨S512x5994, .f32⟩
  | .hbm, ⟨3, _⟩ => ⟨S_, .f32⟩
  | .hbm, ⟨4, _⟩ => ⟨S512, .f32⟩
  | .hbm, ⟨5, _⟩ => ⟨S512x1, .f32⟩
  | .hbm, ⟨6, _⟩ => ⟨S_, .f32⟩
  | .hbm, ⟨7, _⟩ => ⟨S512x1, .f32⟩
  | .hbm, ⟨8, _⟩ => ⟨S512x1, .f32⟩
  | .hbm, ⟨9, _⟩ => ⟨S512x1, .f32⟩
  | .hbm, ⟨10, _⟩ => ⟨S512x5994, .f32⟩
  | .hbm, ⟨11, _⟩ => ⟨S512x5994, .f32⟩
  | .hbm, ⟨12, _⟩ => ⟨S512x5994, .bf16⟩
  | .hbm, ⟨13, _⟩ => ⟨S_, .i32⟩
  | .hbm, ⟨14, _⟩ => ⟨S_, .bf16⟩
  | .hbm, ⟨15, _⟩ => ⟨S512x6016, .bf16⟩
  | .hbm, ⟨16, _⟩ => ⟨S4096x6016, .f32⟩
  | .hbm, ⟨17, _⟩ => ⟨S4096x5994, .f32⟩
  | .local _ .vmem, ⟨0, _⟩ => ⟨S256x512, .f32⟩
  | .local _ .vmem, ⟨1, _⟩ => ⟨S256x512, .f32⟩
  | .local _ .vmem, ⟨2, _⟩ => ⟨S512x6016, .bf16⟩
  | .local _ .vmem, ⟨3, _⟩ => ⟨S256x6016, .f32⟩
  | .local _ .vmem, ⟨4, _⟩ => ⟨S256x6016, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x6016 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x6016 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  reducesTo_S512x5994_S512_d1 : S512x5994.ReducesTo [1] S512
  h_S_ : 0 < S_.numel
  bcast_S512_S512x1_0 : S512.BroadcastsInDim S512x1 (![0] : Fin 1 → Fin S512x1.rank)
  bcast_S_S512x1 : S_.BroadcastsInDim S512x1 (![] : Fin 0 → Fin S512x1.rank)
  bcast_S512x1_S512x5994_0_1 : S512x1.BroadcastsInDim S512x5994 (![0, 1] : Fin 2 → Fin S512x5994.rank)
  bitsLt_bf16_f32 : FTy.bits .bf16 < FTy.bits .f32
  pads_S512x5994_S512x6016_000_0220 : S512x5994.Pads (![0, 0] : Fin 2 → Nat) ![0, 22] ![0, 0] S512x6016
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  broadcasts_S256x1_S256x512 : S256x1.Broadcasts S256x512
  inb_S512x6016_S512x6016_0_0 : ∀ a, (![0, 0] : Fin 2 → Nat) a + S512x6016.size a ≤ S512x6016.size a
  h_S512x6016 : 0 < S512x6016.numel
  shapeCasts_S512x6016_S512x6016 : S512x6016.ShapeCasts S512x6016
  inb_S256x6016_S256x6016_0_0 : ∀ a, (![0, 0] : Fin 2 → Nat) a + S256x6016.size a ≤ S256x6016.size a
  h_S256x6016 : 0 < S256x6016.numel
  slices_S4096x6016_S4096x5994_0_0 : S4096x6016.Slices ![0, 0] S4096x5994
  dot_S256x512_S512x6016_S256x6016_1_0_0_1_n_n_wf : DotDims.WF S256x512 S512x6016 S256x6016 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x6016.size a ≤ S512x6016.size a
  hwx0_1 : ∀ i : grid0.Coords, EltTy.bits .bf16 = 32 ∨ (Rect.block (s := S512x6016) S512x6016.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x6016.size a ≤ S4096x6016.size a
  hwx0_2 : ∀ i : grid0.Coords, EltTy.bits .f32 = 32 ∨ (Rect.block (s := S4096x6016) S256x6016.size (cc0_transform_2 i) (hinb0_2 i)).WholeWords (EltTy.packing .f32)

variable [Facts₀]

def dot_S256x512_S512x6016_S256x6016_1_0_0_1_n_n : DotDims S256x512 S512x6016 S256x6016 where
  lhsContracting := [1]
  rhsContracting := [0]
  lhsNonContracting := [0]
  rhsNonContracting := [1]
  lhsBatch := []
  rhsBatch := []
  wf := dot_S256x512_S512x6016_S256x6016_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S512x6016.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v10) S256x6016.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4096x512 : Shape := ⟨2, ![4096, 512]⟩
abbrev S512x5994 : Shape := ⟨2, ![512, 5994]⟩
abbrev S_ : Shape := ⟨0, ![]⟩
abbrev S4096 : Shape := ⟨1, ![4096]⟩
abbrev S4096x1 : Shape := ⟨2, ![4096, 1]⟩
abbrev S512 : Shape := ⟨1, ![512]⟩
abbrev S512x1 : Shape := ⟨2, ![512, 1]⟩
abbrev S4096x5994 : Shape := ⟨2, ![4096, 5994]⟩

abbrev nBuf : Space → Nat
  | .hbm => 23
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S512x5994, .f32⟩
  | .hbm, ⟨2, _⟩ => ⟨S4096x512, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S4096x1, .f32⟩
  | .hbm, ⟨10, _⟩ => ⟨S4096x512, .f32⟩
  | .hbm, ⟨11, _⟩ => ⟨S4096x512, .f32⟩
  | .hbm, ⟨12, _⟩ => ⟨S512x5994, .f32⟩
  | .hbm, ⟨13, _⟩ => ⟨S_, .f32⟩
  | .hbm, ⟨14, _⟩ => ⟨S512, .f32⟩
  | .hbm, ⟨15, _⟩ => ⟨S512x1, .f32⟩
  | .hbm, ⟨16, _⟩ => ⟨S_, .f32⟩
  | .hbm, ⟨17, _⟩ => ⟨S512x1, .f32⟩
  | .hbm, ⟨18, _⟩ => ⟨S512x1, .f32⟩
  | .hbm, ⟨19, _⟩ => ⟨S512x1, .f32⟩
  | .hbm, ⟨20, _⟩ => ⟨S512x5994, .f32⟩
  | .hbm, ⟨21, _⟩ => ⟨S512x5994, .f32⟩
  | .hbm, ⟨22, _⟩ => ⟨S4096x5994, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]

class Facts₀ : Prop where
  reducesTo_S4096x512_S4096_d1 : S4096x512.ReducesTo [1] S4096
  h_S_ : 0 < S_.numel
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x512_0_1 : S4096x1.BroadcastsInDim S4096x512 (![0, 1] : Fin 2 → Fin S4096x512.rank)
  reducesTo_S512x5994_S512_d1 : S512x5994.ReducesTo [1] S512
  bcast_S512_S512x1_0 : S512.BroadcastsInDim S512x1 (![0] : Fin 1 → Fin S512x1.rank)
  bcast_S_S512x1 : S_.BroadcastsInDim S512x1 (![] : Fin 0 → Fin S512x1.rank)
  bcast_S512x1_S512x5994_0_1 : S512x1.BroadcastsInDim S512x5994 (![0, 1] : Fin 2 → Fin S512x5994.rank)
  dot_S4096x512_S512x5994_S4096x5994_1_0_0_1_n_n_wf : DotDims.WF S4096x512 S512x5994 S4096x5994 [1] [0] [0] [1] [] []

variable [Facts₀]

def dot_S4096x512_S512x5994_S4096x5994_1_0_0_1_n_n : DotDims S4096x512 S512x5994 S4096x5994 where
  lhsContracting := [1]
  rhsContracting := [0]
  lhsNonContracting := [0]
  rhsNonContracting := [1]
  lhsBatch := []
  rhsBatch := []
  wf := dot_S4096x512_S512x5994_S4096x5994_1_0_0_1_n_n_wf

class Facts : Prop extends Facts₀ where

variable [Facts]
-- ==== Proof.LibRowUnit.lean ====
/-
  A matrix row scaled to unit length, read at an index (general: any extents, no program).

  Entry (r, k) of a matrix v with its row r scaled by the reciprocal square root of the larger of the row's sum of
  squares and a floor ε:  v(r, k) · rsqrt(max(Σ_j v(r, j)², ε)).  The number depends on row r of v only. Spelt with
  host operations — a sum along axis 1 from a zero initial value, the sums set up as a column, the maximum with the
  floor broadcast to a column, the reciprocal square root, the column broadcast back along the rows, a product — it
  reads, at (r, k), that number at the exact values: the zero initial value adds nothing.
-/
import Idealize.ShloMosaic.Lib.ValueIdx
import Idealize.ShloMosaic.Lib.Pipeline.Value
import Idealize.ShloMosaic.PureOps.Ideal.Laws

noncomputable section

open scoped BigOperators

namespace Cert.RowUnit

open Idealize.ShloMosaic Idealize.ShloMosaic.ValueIdx

/-- Entry (r, k) of `v` with row r scaled to unit length, the floor ε under the square root. -/
def unit {a b : ℕ} (ε : EReal) (v : (⟨2, ![a, b]⟩ : Shape).Idx → EReal) (r : Fin a) (k : Fin b) : EReal :=
  v (ix2 r k) * Ideal.rsqrt (max (∑ j : Fin b, v (ix2 r j) * v (ix2 r j)) ε)

/-- It is a function of row r alone: two matrices that agree along a row of each give the same scaled entries there. -/
theorem unit_congr {a a' b : ℕ} (ε : EReal) (v : (⟨2, ![a, b]⟩ : Shape).Idx → EReal)
    (v' : (⟨2, ![a', b]⟩ : Shape).Idx → EReal) (r : Fin a) (r' : Fin a')
    (h : ∀ j : Fin b, v (ix2 r j) = v' (ix2 r' j)) (k : Fin b) : unit ε v r k = unit ε v' r' k := by
  simp only [unit, h]

/-- The host's spelling of the scaled rows, read at (r, k) at the exact values. -/
theorem host_apply {a b : ℕ} (e : BitVec 32) (v : FVec Ideal ⟨2, ![a, b]⟩ .f32)
    (hr : (⟨2, ![a, b]⟩ : Shape).ReducesTo [1] ⟨1, ![a]⟩) (hr' : (⟨2, ![a, b]⟩ : Shape).Reduces [1] ⟨1, ![a]⟩)
    (h0 : 0 < (⟨0, ![]⟩ : Shape).numel)
    (hc : (⟨1, ![a]⟩ : Shape).BroadcastsInDim ⟨2, ![a, 1]⟩ ![0])
    (he : (⟨0, ![]⟩ : Shape).BroadcastsInDim ⟨2, ![a, 1]⟩ ![])
    (hb : (⟨2, ![a, 1]⟩ : Shape).BroadcastsInDim ⟨2, ![a, b]⟩ ![0, 1])
    (r : Fin a) (k : Fin b) :
    mulf v (broadcastInDim ⟨2, ![a, b]⟩ ![0, 1] hb (Host.rsqrt (maximumf
        (broadcastInDim ⟨2, ![a, 1]⟩ ![0] hc
          (Host.reduceAdd (mulf v v) (constant (F := Ideal) ⟨0, ![]⟩ .f32 0x00000000#32) hr h0))
        (broadcastInDim ⟨2, ![a, 1]⟩ ![] he (constant (F := Ideal) ⟨0, ![]⟩ .f32 e))))) (ix2 r k)
      = unit (Ideal.ofBits .f32 e) v r k := by
  unfold unit
  refine congrArg (v (ix2 r k) * ·) ?_
  rw [broadcastInDim_apply _ hb _ (ix2 r k) (ix2 r (0 : Fin 1)) (fun ax => by
    match ax with
    | ⟨0, _⟩ =>
      show r.val = if a = 1 then 0 else r.val
      split
      · have := r.isLt; omega
      · rfl
    | ⟨1, _⟩ => rfl)]
  show Ideal.rsqrt (max (broadcastInDim (s := ⟨1, ![a]⟩) ⟨2, ![a, 1]⟩ ![0] hc _ (ix2 r (0 : Fin 1)))
    (broadcastInDim (s := ⟨0, ![]⟩) ⟨2, ![a, 1]⟩ ![] he _ (ix2 r (0 : Fin 1)))) = _
  rw [broadcastInDim_apply _ hc _ (ix2 r (0 : Fin 1)) (ix1 r) (fun ax => by
    match ax with
    | ⟨0, _⟩ =>
      show r.val = if a = 1 then 0 else r.val
      split
      · have := r.isLt; omega
      · rfl),
    broadcastInDim_apply _ he _ (ix2 r (0 : Fin 1)) ix0 (fun ax => ax.elim0)]
  refine congrArg (fun s => Ideal.rsqrt (max s _)) ?_
  simp only [Host.reduceAdd, Ideal.hostReduceAdd_def]
  rw [Ideal.hostReduceAdd_single hr hr']
  show Ideal.ofBits .f32 0x00000000#32 + _ = _
  rw [Ideal.ofBits_zero_f32, zero_add]
  refine Finset.sum_congr rfl fun j _ => ?_
  show v _ * v _ = _
  have ej : hr'.lift (ix1 r) j = ix2 r j := funext fun ax => Fin.ext (by
    match ax with
    | ⟨0, _⟩ => rfl
    | ⟨1, _⟩ => rfl)
  rw [ej]
  rfl

end Cert.RowUnit

end
-- ==== Proof.Spec.lean ====
/-
  The cosine-similarity table: every row of x and every row of W scaled to unit length (floor ε under each square
  root), then contracted over the shared axis of extent 512:

      G x W (b, n) = Σ_k  x̂(b, k) · Ŵ(k, n),   x̂(b, k) = x(b, k) · rsqrt(max(Σ_j x(b, j)², ε)),
                                                  Ŵ(k, n) = W(k, n) · rsqrt(max(Σ_j W(k, j)², ε)).

  Both programs are shown to end with this one function of their arguments.
-/
import proofs.«131450_j64570538328853_2_alg».proof.Proof.LibRowUnit

noncomputable section

open scoped BigOperators

namespace Cert.Cosine

open Idealize.ShloMosaic Idealize.ShloMosaic.ValueIdx Cert.RowUnit

/-- The floor under both square roots: the single-precision word both programs print for 1e-12. -/
abbrev ε : EReal := Ideal.ofBits .f32 0x2B8CBCCC#32

/-- Entry (b, n) of the table, over explicit coordinates. -/
def cos (x : (⟨2, ![4096, 512]⟩ : Shape).Idx → EReal) (w : (⟨2, ![512, 5994]⟩ : Shape).Idx → EReal)
    (b : Fin 4096) (n : Fin 5994) : EReal :=
  ∑ k : Fin 512, unit ε x b k * unit ε w k n

/-- The table as one array. -/
def G (x : (⟨2, ![4096, 512]⟩ : Shape).Idx → EReal) (w : (⟨2, ![512, 5994]⟩ : Shape).Idx → EReal) :
    (⟨2, ![4096, 5994]⟩ : Shape).Idx → EReal :=
  fun i => cos x w (i 0) (i 1)

theorem G_apply (x : (⟨2, ![4096, 512]⟩ : Shape).Idx → EReal) (w : (⟨2, ![512, 5994]⟩ : Shape).Idx → EReal)
    (b : Fin 4096) (n : Fin 5994) : G x w (ix2 b n) = cos x w b n := rfl

end Cert.Cosine

end
-- ==== Proof.RefValue.lean ====
/-
  The reference computes the cosine-similarity table: its last operation is a contraction over k of two operands,
  and each operand is a matrix with its rows scaled to unit length, spelt with host operations.
-/
import proofs.«131450_j64570538328853_2_alg».proof.Proof.Gen.ReferenceIdeal.Read
import proofs.«131450_j64570538328853_2_alg».proof.Proof.Spec

noncomputable section

open scoped BigOperators

namespace Cert.Cosine

open Idealize.ShloMosaic Idealize.ShloMosaic.ValueIdx Cert.RowUnit
open Cert.ReferenceIdeal Cert.ReferenceIdeal.Gen Cert.ReferenceIdeal.Read

/-- The left operand of the contraction is x with unit rows. -/
theorem ref_left (x : FVec Ideal S4096x512 .f32) (b : Fin 4096) (k : Fin 512) :
    val_main_v7 (F := Ideal) x (ix2 b k) = unit ε x b k :=
  host_apply 0x2B8CBCCC#32 x reducesTo_S4096x512_S4096_d1 (by decide) h_S_ bcast_S4096_S4096x1_0 bcast_S_S4096x1
    bcast_S4096x1_S4096x512_0_1 b k

/-- The right operand is W with unit rows. -/
theorem ref_right (w : FVec Ideal S512x5994 .f32) (k : Fin 512) (n : Fin 5994) :
    val_main_v15 (F := Ideal) w (ix2 k n) = unit ε w k n :=
  host_apply 0x2B8CBCCC#32 w reducesTo_S512x5994_S512_d1 (by decide) h_S_ bcast_S512_S512x1_0 bcast_S_S512x1
    bcast_S512x1_S512x5994_0_1 k n

/-- The reference's result is the table. -/
theorem ref_eq (x : FVec Ideal S4096x512 .f32) (w : FVec Ideal S512x5994 .f32) :
    val_main_v16 (F := Ideal) x w = G x w := by
  funext i
  obtain ⟨b, n, rfl⟩ : ∃ (b : Fin 4096) (n : Fin 5994), i = ix2 b n := ⟨i 0, i 1, eq_ix2 i⟩
  rw [val_main_v16_apply, G_apply]
  unfold cos
  refine Finset.sum_congr rfl fun k _ => ?_
  have el : lidx_main_v16 (ix2 b n) k = ix2 b k := funext fun a => Fin.ext (by
    match a with
    | ⟨0, _⟩ => rfl
    | ⟨1, _⟩ => rfl)
  have er : ridx_main_v16 (ix2 b n) k = ix2 k n := funext fun a => Fin.ext (by
    match a with
    | ⟨0, _⟩ => rfl
    | ⟨1, _⟩ => rfl)
  rw [el, er, ref_left, ref_right]

end Cert.Cosine

end
-- ==== Proof.LibColumn.lean ====
/-
  Column vectors and sums along one axis of a matrix, read at an index (general: any extents, no program).

  A sum that keeps its axis (a row sum stored as a column, a column sum stored as one cell) passes through a few
  re-arrangements: a length-a vector viewed as an a × 1 column, a column repeated along every row of an a × b matrix,
  a single cell repeated over a whole matrix, a length-1 vector viewed as a 1 × 1 matrix. Each reads its operand at
  the evident index. At the exact values, summing a matrix along its columns gives each row's sum, and summing a
  column gives the sum of its entries; both as plain finite sums.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Column

open Idealize.ShloMosaic Idealize.ShloMosaic.ValueIdx

variable {α : Type}

/-- A length-a vector viewed as an a × 1 column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A length-1 vector viewed as a 1 × 1 matrix reads its one entry. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  (shapeCast_a_1a_apply x h u v).trans (congrArg x (congrArg ix1 (Subsingleton.elim v 0)))

/-- An a × 1 column repeated along the rows of an a × b matrix reads, at (p, c), the column at p. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A single cell repeated over an a × b matrix reads that cell everywhere. -/
theorem broadcastTo_11_ab_apply {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-- At the exact values, summing an a × b matrix along its columns gives, at row r, the sum of that row. -/
theorem laneSum_apply {a b : ℕ} (v : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (r : Fin a) :
    multiReduction .add [1] ⟨1, ![a]⟩ v acc h hφ hacc (ix1 r) = ∑ j : Fin b, v (ix2 r j) := by
  refine (Ideal.multiReduction_add_single v acc h hφ hacc (ix1 r)).trans ?_
  refine Finset.sum_congr rfl fun j _ => congrArg v ?_
  funext ax
  match ax with
  | ⟨0, _⟩ => exact Fin.ext rfl
  | ⟨1, _⟩ => exact Fin.ext rfl

/-- At the exact values, summing an a × 1 column along its rows gives the sum of its entries. -/
theorem colSum_apply {a : ℕ} (v : FVec Ideal ⟨2, ![a, 1]⟩ .f32) (acc : BitVec 32)
    (h : (⟨2, ![a, 1]⟩ : Shape).Reduces [0] ⟨1, ![1]⟩) (hφ : FKind.Formats .f32)
    (hacc : acc = FKind.add.neutral .f32 hφ) (u : Fin 1) :
    multiReduction .add [0] ⟨1, ![1]⟩ v acc h hφ hacc (ix1 u) = ∑ r : Fin a, v (ix2 r (0 : Fin 1)) := by
  refine (Ideal.multiReduction_add_single v acc h hφ hacc (ix1 u)).trans ?_
  refine Finset.sum_congr rfl fun r _ => congrArg v ?_
  funext ax
  match ax with
  | ⟨0, _⟩ => exact Fin.ext rfl
  | ⟨1, _⟩ => exact Fin.ext (by show u.val = 0; omega)

end Cert.Column

end
-- ==== Proof.Payload.lean ====
/-
  What the kernel body stores, read at an entry. The body loads a 256 × 512 block X of x and the whole 512 × 6016
  matrix B, scales every row of X to unit length with vector operations (a lane sum of squares viewed as a column, the
  maximum with the splat floor, the reciprocal square root, the column repeated along the row, a product), and multiplies
  into a zero accumulator. At the exact values entry (p, q) of the product is  Σ_k X̂(p, k) · B(k, q).
-/
import proofs.«131450_j64570538328853_2_alg».proof.Proof.Gen.KernelIdeal.Skeleton
import proofs.«131450_j64570538328853_2_alg».proof.Proof.LibColumn
import proofs.«131450_j64570538328853_2_alg».proof.Proof.Spec

noncomputable section

open scoped BigOperators

namespace Cert.Cosine

open Idealize.ShloMosaic Idealize.ShloMosaic.ValueIdx Cert.RowUnit
open Cert.KernelIdeal Cert.KernelIdeal.Gen

/-- The vector unit's spelling of a block with unit rows, read at (p, k). -/
theorem lane_unit (x0 : FVec Ideal S256x512 .f32) (p : Fin 256) (k : Fin 512) :
    mulf x0 (broadcastTo S256x512 (rsqrt (maximumf
        (shapeCast S256x1 (multiReduction .add [1] S256 (mulf x0 x0) 0x00000000#32 reduces_S256x512_S256 (.inl rfl) rfl)
          shapeCasts_S256_S256x1)
        (broadcast S256x1 (Scalar.ofBits (F := Ideal) .f32 0x2B8CBCCC#32)))) broadcasts_S256x1_S256x512) (ix2 p k)
      = unit ε x0 p k := by
  unfold unit
  refine congrArg (x0 (ix2 p k) * ·) ?_
  rw [Column.broadcastTo_a1_ab_apply _ broadcasts_S256x1_S256x512 p k]
  show Ideal.rsqrt (max (shapeCast (s := S256) S256x1 _ shapeCasts_S256_S256x1 (ix2 p (0 : Fin 1))) ε) = _
  rw [Column.shapeCast_a_a1_apply _ shapeCasts_S256_S256x1 p (0 : Fin 1)]
  refine congrArg (fun s => Ideal.rsqrt (max s ε)) ?_
  exact Column.laneSum_apply (mulf x0 x0) 0x00000000#32 reduces_S256x512_S256 (.inl rfl) rfl p

/-- The left operand's row coordinate is the output's row. -/
theorem lhs_row (i : S256x6016.Idx) (κ : dot_S256x512_S512x6016_S256x6016_1_0_0_1_n_n.contr.Idx) :
    (dot_S256x512_S512x6016_S256x6016_1_0_0_1_n_n.lhsIdx i κ 0).val = (i 0).val := by
  unfold DotDims.lhsIdx
  rw [dif_neg (show ¬(0 : Fin S256x512.rank) ∈ dot_S256x512_S512x6016_S256x6016_1_0_0_1_n_n.lhsBatch by decide),
    dif_pos (show (0 : Fin S256x512.rank) ∈ dot_S256x512_S512x6016_S256x6016_1_0_0_1_n_n.lhsNonContracting by decide)]
  rfl

/-- The right operand's column coordinate is the output's column. -/
theorem rhs_col (i : S256x6016.Idx) (κ : dot_S256x512_S512x6016_S256x6016_1_0_0_1_n_n.contr.Idx) :
    (dot_S256x512_S512x6016_S256x6016_1_0_0_1_n_n.rhsIdx i κ 1).val = (i 1).val := by
  unfold DotDims.rhsIdx
  rw [dif_neg (show ¬(1 : Fin S512x6016.rank) ∈ dot_S256x512_S512x6016_S256x6016_1_0_0_1_n_n.rhsBatch by decide),
    dif_pos (show (1 : Fin S512x6016.rank) ∈ dot_S256x512_S512x6016_S256x6016_1_0_0_1_n_n.rhsNonContracting by decide)]
  rfl

/-- The matrix product into a zero accumulator, read at (p, q): the sum over the one contracted axis. -/
theorem matmul_zero_apply (l : FVec Ideal S256x512 .bf16) (r : FVec Ideal S512x6016 .bf16) (p : Fin 256) (q : Fin 6016) :
    FloatOps.matmul dot_S256x512_S512x6016_S256x6016_1_0_0_1_n_n none l r (constant S256x6016 .f32 0x00000000#32) (ix2 p q)
      = ∑ k : Fin 512, l (ix2 p k) * r (ix2 k q) := by
  rw [Ideal.matmul_constant_zero_apply,
    ← Equiv.sum_comp (contrEquiv1 dot_S256x512_S512x6016_S256x6016_1_0_0_1_n_n 512 rfl rfl).symm]
  refine Finset.sum_congr rfl fun k _ => ?_
  have hk := contrEquiv1_symm_val dot_S256x512_S512x6016_S256x6016_1_0_0_1_n_n 512 rfl rfl k
  have el : dot_S256x512_S512x6016_S256x6016_1_0_0_1_n_n.lhsIdx (ix2 p q)
      ((contrEquiv1 dot_S256x512_S512x6016_S256x6016_1_0_0_1_n_n 512 rfl rfl).symm k) = ix2 p k :=
    funext fun a => Fin.ext (by
      match a with
      | ⟨0, _⟩ => exact lhs_row _ _
      | ⟨1, _⟩ => exact (dot_S256x512_S512x6016_S256x6016_1_0_0_1_n_n.lhsIdx_val_of_single rfl _ _).trans hk)
  have er : dot_S256x512_S512x6016_S256x6016_1_0_0_1_n_n.rhsIdx (ix2 p q)
      ((contrEquiv1 dot_S256x512_S512x6016_S256x6016_1_0_0_1_n_n 512 rfl rfl).symm k) = ix2 k q :=
    funext fun a => Fin.ext (by
      match a with
      | ⟨0, _⟩ => exact (dot_S256x512_S512x6016_S256x6016_1_0_0_1_n_n.rhsIdx_val_of_single rfl _ _).trans hk
      | ⟨1, _⟩ => exact rhs_col _ _)
  rw [el, er]

/-- The stored value at (p, q). -/
theorem pay_apply (x0 : FVec Ideal S256x512 .f32) (x1 : FVec Ideal S512x6016 .bf16) (p : Fin 256) (q : Fin 6016) :
    k0_pay1 (F := Ideal) x0 x1 (ix2 p q) = ∑ k : Fin 512, unit ε x0 p k * x1 (ix2 k q) := by
  unfold k0_pay1
  refine (matmul_zero_apply _ _ p q).trans ?_
  refine Finset.sum_congr rfl fun k _ => ?_
  refine congrArg₂ (· * ·) (lane_unit x0 p k) ?_
  exact congrFun (shapeCast_self x1 shapeCasts_S512x6016_S512x6016) (ix2 k q)

end Cert.Cosine

end
-- ==== Proof.Blocks.lean ====
/-
  From blocks to the array. Grid point t handles rows 256·t … 256·t + 255: it loads that block of x and the whole
  512 × 6016 matrix, and writes back the block's product. So what point t writes back is block t of ONE function of the
  two arrays the region finds, (b, n') ↦ Σ_k x̂(b, k) · B(k, n') — a row of x̂ depends on that row of x only — and the
  sixteen blocks fill the 4096 × 6016 array: after the region it holds that function.
-/
import proofs.«131450_j64570538328853_2_alg».proof.Proof.Gen.KernelIdeal.Frame
import proofs.«131450_j64570538328853_2_alg».proof.Proof.Payload
import Idealize.ShloMosaic.Lib.Pipeline.Value

set_option maxRecDepth 16384

noncomputable section

open scoped BigOperators

namespace Cert.Cosine

open Idealize.ShloMosaic Idealize.ShloMosaic.TcCoe Idealize.ShloMosaic.ValueIdx Idealize.SL.Sem Cert.RowUnit
open Cert.KernelIdeal Cert.KernelIdeal.Gen

variable (m : (ℓ : Loc nD τ sig) → Buf (Elt Ideal) ℓ)

theorem zero_offsets : (![0, 0] : Fin 2 → Nat) = fun _ => 0 := funext fun a => by fin_cases a <;> rfl

/-- Unit rows of x times a 512 × 6016 matrix: the array the output window's blocks are cut from. -/
def prod (x : FVec Ideal S4096x512 .f32) (bm : FVec Ideal S512x6016 .bf16) : S4096x6016.Idx → EReal :=
  fun i => ∑ k : Fin 512, unit ε x (i 0) k * bm (ix2 k (i 1))

/-- The printed index maps over the grid: the block of x moves with the output's block along the rows, the second
    operand's block never moves, no block moves along the columns. -/
theorem index_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) ≤ 15
    ∧ win0_2.index t (1 : Fin 2) = 0 :=
  (by decide +kernel : ∀ t : Fin grid0.N, _)

/-- Every block of rows is some point's. -/
theorem index_onto : ∀ q0 : Fin 16, ∃ t : Fin cfg0.N, win0_2.index t = ![q0.val, 0] :=
  (by decide +kernel : ∀ q0 : Fin 16, ∃ t : Fin grid0.N, win0_2.index t = ![q0.val, 0])

/-- What point t writes back is block t of `prod` of the arrays the region finds. -/
theorem flushed_eq (c : Dev nD) (t : Fin cfg0.N) :
    (dats m 0 c).flushed 2 t
      = ((cfg0.win 2).blk t).view.read (Elt Ideal) (prod (V m c main_arg0) (V m c main_v9)) := by
  show (cfg0.win 2).cut (grid0.coords t) ((dats m 0 c).after 2 t) = _
  rw [after0_2]
  unfold out0_2
  rw [View.canon_unit_zero zero_offsets]
  simp only [View.ld_unit_zero (S := S256x512) zero_offsets, View.ld_unit_zero (S := S512x6016) zero_offsets]
  obtain ⟨e0, e1, e2, e3, e4, e5⟩ := index_facts t
  funext j
  obtain ⟨p, q, rfl⟩ : ∃ (p : Fin 256) (q : Fin 6016), j = ix2 p q := ⟨j 0, j 1, eq_ix2 j⟩
  show k0_pay1 (iblk m c 0 t) (iblk m c 1 t) (ix2 p q)
    = prod (V m c main_arg0) (V m c main_v9) (((cfg0.win 2).blk t).view.emb (ix2 p q))
  refine (pay_apply (iblk m c 0 t) (iblk m c 1 t) p q).trans ?_
  unfold prod
  refine Finset.sum_congr rfl fun k _ => ?_
  refine congrArg₂ (· * ·) ?_ ?_
  · refine unit_congr ε _ _ p _ (fun j => ?_) k
    show V m c main_arg0 (((cfg0.win 0).blk t).view.emb (ix2 p j))
      = V m c main_arg0 (ix2 ((((cfg0.win 2).blk t).view.emb (ix2 p q)) 0) j)
    refine congrArg (V m c main_arg0) (funext fun a => Fin.ext ?_)
    match a with
    | ⟨0, _⟩ =>
      show win0_0.index t (0 : Fin 2) * 256 + 1 * p.val = win0_2.index t (0 : Fin 2) * 256 + 1 * p.val
      omega
    | ⟨1, _⟩ =>
      show win0_0.index t (1 : Fin 2) * 512 + 1 * j.val = j.val
      omega
  · show V m c main_v9 (((cfg0.win 1).blk t).view.emb (ix2 k q))
      = V m c main_v9 (ix2 k ((((cfg0.win 2).blk t).view.emb (ix2 p q)) 1))
    refine congrArg (V m c main_v9) (funext fun a => Fin.ext ?_)
    match a with
    | ⟨0, _⟩ =>
      show win0_1.index t (0 : Fin 2) * 512 + 1 * k.val = k.val
      omega
    | ⟨1, _⟩ =>
      show win0_1.index t (1 : Fin 2) * 6016 + 1 * q.val = win0_2.index t (1 : Fin 2) * 6016 + 1 * q.val
      omega

/-- An entry of the array lies in point t's block iff each coordinate lies in the block's range on its axis. -/
theorem mem_block (t : Fin cfg0.N) (i : S4096x6016.Idx) :
    i ∈ ((cfg0.win 2).blk t).view.set ↔ ∀ a : Fin 2, win0_2.index t a * S256x6016.size a ≤ (i a).val
      ∧ (i a).val < win0_2.index t a * S256x6016.size a + S256x6016.size a := by
  show i ∈ ((View.whole main_v10).slice (win0_2.rect t)).set ↔ _
  rw [View.set_slice_whole, Rect.mem_set_unit]
  exact Iff.rfl

/-- Every entry of the array is in the block of the point that handles its row. -/
theorem covered (i : S4096x6016.Idx) :
    ∃ t : Fin cfg0.N, (cfg0.win 2).flush t = true ∧ i ∈ ((cfg0.win 2).blk t).view.set := by
  have hi0 : (i 0).val < 4096 := (i 0).isLt
  have hi1 : (i 1).val < 6016 := (i 1).isLt
  obtain ⟨t, ht⟩ := index_onto ⟨(i 0).val / 256, by omega⟩
  have q0 : win0_2.index t (0 : Fin 2) = (i 0).val / 256 := congrFun ht 0
  have q1 : win0_2.index t (1 : Fin 2) = 0 := congrFun ht 1
  refine ⟨t, flush0_2 t, ?_⟩
  rw [mem_block]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 6016 ≤ (i 1).val ∧ (i 1).val < win0_2.index t (1 : Fin 2) * 6016 + 6016
    omega

/-- The output array after the region. -/
theorem final (c : Dev nD) : (dats m 0 c).arrAt 2 cfg0.N = prod (V m c main_arg0) (V m c main_v9) :=
  (dats m 0 c).arrAt_eq_of_cover 2 _ (fun t _ => flushed_eq m c t) covered

end Cert.Cosine

end
-- ==== Proof.Weights.lean ====
/-
  What the kernel finds in its second operand. Before the region the host scales every row of W to unit length (the same
  host operations as the reference's), changes the format (the identity at the exact values) and appends 22 columns of
  the padding value on the right. So inside the first 5994 columns the array the region finds reads Ŵ(k, n).
-/
import proofs.«131450_j64570538328853_2_alg».proof.Proof.Gen.KernelIdeal.Frame
import proofs.«131450_j64570538328853_2_alg».proof.Proof.Spec
import Idealize.ShloMosaic.Lib.KernelVsHost
import Idealize.ShloMosaic.Lib.StableHlo.Run

noncomputable section

open scoped BigOperators

namespace Cert.Cosine

open Idealize.ShloMosaic Idealize.ShloMosaic.TcCoe Idealize.ShloMosaic.ValueIdx Idealize.SL.Sem Cert.RowUnit
open Cert.KernelIdeal Cert.KernelIdeal.Gen

variable (m : (ℓ : Loc nD τ sig) → Buf (Elt Ideal) ℓ)

/-- The padded matrix, as the host operations before the region compose it from W. -/
def padded (w : FVec Ideal S512x5994 .f32) : FVec Ideal S512x6016 .bf16 :=
  pad S512x6016 ![0, 0] ![0, 22] ![0, 0]
    (truncf .bf16 (mulf w (broadcastInDim S512x5994 ![0, 1] bcast_S512x1_S512x5994_0_1 (Host.rsqrt (maximumf
      (broadcastInDim S512x1 ![0] bcast_S512_S512x1_0
        (Host.reduceAdd (mulf w w) (constant (F := Ideal) S_ .f32 0x00000000#32) reducesTo_S512x5994_S512_d1 h_S_))
      (broadcastInDim S512x1 ![] bcast_S_S512x1 (constant (F := Ideal) S_ .f32 0x2B8CBCCC#32)))))) bitsLt_bf16_f32)
    (sitofp (F := Ideal) .bf16 (constantI S_ 32 0#32)) pads_S512x5994_S512x6016_000_0220 h_S_

/-- Window 1's array, as the region finds it, is that matrix of the launch contents of W. -/
theorem entry_weights (c : Dev nD) :
    (V m c main_v9 : S512x6016.Idx → EReal) = padded (m ((c : Thread nD τ).loc main_arg1)) := by
  dsimp only [Gen.V, Gen.V0]
  simp only [Gen.hostOps0, Gen.hostOps0_1, List.flatten_cons, List.flatten_nil, List.append_nil, List.cons_append,
    List.nil_append]
  after_results
  rfl

/-- Inside the first 5994 columns the padded matrix reads W with unit rows. -/
theorem padded_apply (w : FVec Ideal S512x5994 .f32) (k : Fin 512) (n : Fin 5994) (n' : Fin 6016) (hn : n'.val = n.val) :
    padded w (ix2 k n') = unit ε w k n := by
  unfold padded
  rw [pad_apply_of_inside ![0, 0] ![0, 22] ![0, 0] _ _ pads_S512x5994_S512x6016_000_0220 h_S_ (ix2 k n') (ix2 k n)
    (fun a => by
      match a with
      | ⟨0, _⟩ => show k.val = 0 + k.val * (0 + 1); omega
      | ⟨1, _⟩ => show n'.val = 0 + n.val * (0 + 1); omega)]
  exact host_apply 0x2B8CBCCC#32 w reducesTo_S512x5994_S512_d1 (by decide) h_S_ bcast_S512_S512x1_0 bcast_S_S512x1
    bcast_S512x1_S512x5994_0_1 k n

end Cert.Cosine

end
-- ==== Proof.KernelValue.lean ====
/-
  The kernel program's result. After the region the host keeps the first 5994 columns of the 4096 × 6016 product. Inside
  those columns the matrix the region multiplied by reads Ŵ, and x reaches the region as launched, so the result is the
  cosine-similarity table of the launch contents of x and W; the 22 padding columns are never read back.
-/
import proofs.«131450_j64570538328853_2_alg».proof.Proof.Blocks
import proofs.«131450_j64570538328853_2_alg».proof.Proof.Weights

set_option maxRecDepth 16384

noncomputable section

open scoped BigOperators

namespace Cert.Cosine

open Idealize.ShloMosaic Idealize.ShloMosaic.TcCoe Idealize.ShloMosaic.ValueIdx Idealize.SL.Sem Cert.RowUnit
open Cert.KernelIdeal Cert.KernelIdeal.Gen

variable (m : (ℓ : Loc nD τ sig) → Buf (Elt Ideal) ℓ)

/-- The first 5994 columns of the product are the table. -/
theorem slice_prod (c : Dev nD) :
    extractStridedSlice S4096x5994 ![0, 0] (prod (V m c main_arg0) (V m c main_v9)) slices_S4096x6016_S4096x5994_0_0
      = G (m ((c : Thread nD τ).loc main_arg0)) (m ((c : Thread nD τ).loc main_arg1)) := by
  funext i
  obtain ⟨b, n, rfl⟩ : ∃ (b : Fin 4096) (n : Fin 5994), i = ix2 b n := ⟨i 0, i 1, eq_ix2 i⟩
  have hn : n.val < 6016 := by have := n.isLt; omega
  rw [extractStridedSlice_apply ![0, 0] _ slices_S4096x6016_S4096x5994_0_0 (ix2 b n) (ix2 b (⟨n.val, hn⟩ : Fin 6016))
    (fun a => by
      match a with
      | ⟨0, _⟩ => show b.val = 0 + b.val; omega
      | ⟨1, _⟩ => show n.val = 0 + n.val; omega),
    G_apply]
  unfold prod cos
  refine Finset.sum_congr rfl fun k _ => ?_
  refine congrArg₂ (· * ·) ?_ ?_
  · exact unit_congr ε _ _ b b (fun j => congrFun (V_main_arg0 m c) (ix2 b j)) k
  · rw [entry_weights]
    exact padded_apply _ k n ⟨n.val, hn⟩ rfl

/-- The result buffer after the lines that follow the region. -/
theorem tail_eq (c : Dev nD) :
    Pipeline.afterTail₀ cfgs (dats m) 0 (V0 m) [hostOps1] c main_v11
      = G (m ((c : Thread nD τ).loc main_arg0)) (m ((c : Thread nD τ).loc main_arg1)) := by
  have hw : Pipeline.withArrays (cfgs 0).spec c (V0 m c) (fun w => (dats m 0 c).arrAt w (cfgs 0).N)
        (Proc.devRef .tc main_v10)
      = prod (V m c main_arg0) (V m c main_v9) :=
    (Pipeline.withArrays_arr spec0 launch0.win.arr_inj c _ _ 2).trans (final m c)
  unfold Pipeline.afterTail₀
  show StableHlo.after hostOps1 _ (Proc.devRef .tc main_v11) = _
  after_results
  rw [hw]
  exact slice_prod m c

/-- Every weakly fair execution of the kernel program ends with the table in its result and its arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v11)
          = G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v11 (Pipeline.mem_restRefs_of main_v11 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c)⟩)
    (run_main m ρ)

end Cert.Cosine

end
-- ==== Proof.lean ====
/-
  Both programs compute the cosine-similarity table of x (4096 × 512) and W (512 × 5994): every row of x and every
  row of W is scaled to unit length — v · rsqrt(max(Σ v², ε)), the same floor ε on both sides — and the two are
  contracted over the shared axis, out(b, n) = Σ_k x̂(b, k) · Ŵ(k, n) (Proof/Spec.lean, `Cert.Cosine.G`).

  The reference does exactly that with host operations (Proof/RefValue.lean, over the generated run and its
  read-at-an-index lemmas). The kernel program scales W on the host the same way, rounds it (the identity at the exact
  values), pads it on the right with 22 columns, and runs sixteen grid points, each scaling its 256 rows of x with
  vector operations and multiplying by the whole padded matrix into a zero accumulator (Proof/Payload.lean); the
  blocks fill the 4096 × 6016 product (Proof/Blocks.lean), of which the host keeps the first 5994 columns, where the
  padded matrix reads Ŵ (Proof/Weights.lean, Proof/KernelValue.lean). The two sides are the same sum over k term by
  term, so no finiteness of the inputs is used. The ideal pass rewrote nothing: `preserves` is `True`.
-/
import proofs.«131450_j64570538328853_2_alg».proof.Defs
import proofs.«131450_j64570538328853_2_alg».proof.Proof.Gen.Kernel
import proofs.«131450_j64570538328853_2_alg».proof.Proof.Gen.Kernel.Skeleton
import proofs.«131450_j64570538328853_2_alg».proof.Proof.Gen.Kernel.Launch
import proofs.«131450_j64570538328853_2_alg».proof.Proof.Gen.Kernel.Points
import proofs.«131450_j64570538328853_2_alg».proof.Proof.Gen.Kernel.Frame
import proofs.«131450_j64570538328853_2_alg».proof.Proof.Gen.KernelIdeal
import proofs.«131450_j64570538328853_2_alg».proof.Proof.Gen.KernelIdeal.Skeleton
import proofs.«131450_j64570538328853_2_alg».proof.Proof.Gen.KernelIdeal.Launch
import proofs.«131450_j64570538328853_2_alg».proof.Proof.Gen.KernelIdeal.Points
import proofs.«131450_j64570538328853_2_alg».proof.Proof.Gen.KernelIdeal.Frame
import proofs.«131450_j64570538328853_2_alg».proof.Proof.Gen.ReferenceIdeal
import proofs.«131450_j64570538328853_2_alg».proof.Proof.Gen.Pre_finite_inputs
import proofs.«131450_j64570538328853_2_alg».proof.Proof.Gen.ReferenceIdeal.Run
import proofs.«131450_j64570538328853_2_alg».proof.Proof.Gen.ReferenceIdeal.Read
import proofs.«131450_j64570538328853_2_alg».proof.Proof.RefValue
import proofs.«131450_j64570538328853_2_alg».proof.Proof.KernelValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program at the exact values. -/
theorem frame_kernel_ideal : Cert.frame_KernelIdeal := fun m ρ _ => Cert.KernelIdeal.Gen.frame m ρ

/-- The reference is a line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- At the exact values both programs, run from memories that agree on x and W, end with the cosine-similarity table
    of x and W. -/
theorem algebraic : Cert.algebraic_KernelIdeal_ReferenceIdeal := by
  intro m ρ m' ρ' _ hagree
  refine ⟨fun c => Cert.Cosine.G (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.Cosine.kernel_run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v16_eq, Cert.Cosine.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
